-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x2 : Shape := ⟨2, ![600000, 2]⟩
abbrev S256x128 : Shape := ⟨2, ![256, 128]⟩
abbrev S256 : Shape := ⟨1, ![256]⟩
abbrev S128x256 : Shape := ⟨2, ![128, 256]⟩
abbrev S128 : Shape := ⟨1, ![128]⟩
abbrev S5x128 : Shape := ⟨2, ![5, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S128 .f32) (main_arg7 : FVec F S5x128 .f32) (main_arg8 : FVec F S3x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S5x128 .f32 := Host.absf main_arg7
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : IVec S600000x2 32) (main_arg3 : FVec F S256x128 .f32) (main_arg4 : FVec F S256 .f32) (main_arg5 : FVec F S128x256 .f32) (main_arg6 : FVec F S128 .f32) (main_arg7 : FVec F S5x128 .f32) (main_arg8 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S600000x2 : Shape := ⟨2, ![600000, 2]⟩
abbrev S256x128 : Shape := ⟨2, ![256, 128]⟩
abbrev S256 : Shape := ⟨1, ![256]⟩
abbrev S128x256 : Shape := ⟨2, ![128, 256]⟩
abbrev S128 : Shape := ⟨1, ![128]⟩
abbrev S5x128 : Shape := ⟨2, ![5, 128]⟩
abbrev S3x128 : Shape := ⟨2, ![3, 128]⟩
abbrev S1x600000 : Shape := ⟨2, ![1, 600000]⟩
abbrev S600000 : Shape := ⟨1, ![600000]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S1x256 : Shape := ⟨2, ![1, 256]⟩
abbrev S5000x128 : Shape := ⟨2, ![5000, 128]⟩
abbrev S5000x256 : Shape := ⟨2, ![5000, 256]⟩

abbrev nBuf : Space → Nat
  | .hbm => 61
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x2, .i32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S5x128, .f32⟩
  | .hbm, ⟨8, _⟩ => ⟨S3x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S600000x1, .i32⟩
  | .hbm, ⟨14, _⟩ => ⟨S600000, .i32⟩
  | .hbm, ⟨15, _⟩ => ⟨S600000x1, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S600000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S128x256, .f32⟩
  | .hbm, ⟨57, _⟩ => ⟨S256x128, .f32⟩
  | .hbm, ⟨58, _⟩ => ⟨S1x256, .f32⟩
  | .hbm, ⟨59, _⟩ => ⟨S1x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x128, .f32⟩
  | .local _ .vmem, ⟨5, _⟩ => ⟨S128x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S5x128_S1x128_4_0 : S5x128.Slices ![4, 0] S1x128
  shapeCasts_S1x128_S128 : S1x128.ShapeCasts S128
  slices_S3x128_S1x128_0_0 : S3x128.Slices ![0, 0] S1x128
  shapeCasts_S128_S1x128 : S128.ShapeCasts S1x128
  transposes_S256x128_S128x256_1_0 : S256x128.Transposes [1, 0] S128x256
  transposes_S128x256_S256x128_1_0 : S128x256.Transposes [1, 0] S256x128
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  gather_S5x128_S600000x1_S600000x128_1_0_n_n_0_1_1128_wf : GatherDims.WF S5x128 S600000x1 S600000x128 [1] [0] [] [0] [] 1 ![1, 128]
  gather_S3x128_S600000x1_S600000x128_1_0_n_n_0_1_1128_wf : GatherDims.WF S3x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S5x128_S600000x1_S600000x128_1_0_n_n_0_1_1128 : GatherDims S5x128 S600000x1 S600000x128 where
  offsetDims := [1]
  collapsedSliceDims := [0]
  operandBatchingDims := []
  startIndicesBatchingDims := []
  startIndexMap := [0]
  indexVectorDim := 1
  sliceSizes := ![1, 128]
  wf := gather_S5x128_S600000x1_S600000x128_1_0_n_n_0_1_1128_wf
def gather_S3x128_S600000x1_S600000x128_1_0_n_n_0_1_1128 : GatherDims S3x128 S600000x1 S600000x128 where
  offsetDims := [1]
  collapsedSliceDims := [0]
  operandBatchingDims := []
  startIndicesBatchingDims := []
  startIndexMap := [0]
  indexVectorDim := 1
  sliceSizes := ![1, 128]
  wf := gather_S3x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x2 : Shape := ⟨2, ![600000, 2]⟩
abbrev S256x128 : Shape := ⟨2, ![256, 128]⟩
abbrev S256 : Shape := ⟨1, ![256]⟩
abbrev S128x256 : Shape := ⟨2, ![128, 256]⟩
abbrev S128 : Shape := ⟨1, ![128]⟩
abbrev S5x128 : Shape := ⟨2, ![5, 128]⟩
abbrev S3x128 : Shape := ⟨2, ![3, 128]⟩
abbrev S1x600000 : Shape := ⟨2, ![1, 600000]⟩
abbrev S600000 : Shape := ⟨1, ![600000]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S50000x256 : Shape := ⟨2, ![50000, 256]⟩
abbrev S1x256 : Shape := ⟨2, ![1, 256]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x2, .i32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S5x128, .f32⟩
  | .hbm, ⟨8, _⟩ => ⟨S3x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S600000x1, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S600000x1, .i32⟩
  | .hbm, ⟨25, _⟩ => ⟨S600000, .i32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S600000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S128x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S256x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S600000x2_S600000x1_0_0 : S600000x2.Slices ![0, 0] S600000x1
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S600000x2_S600000x1_0_1 : S600000x2.Slices ![0, 1] S600000x1
  bcast_S_S50000x128 : S_.BroadcastsInDim S50000x128 (![] : Fin 0 → Fin S50000x128.rank)
  slices_S5x128_S1x128_4_0 : S5x128.Slices ![4, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128_S1x128_0_0 : S3x128.Slices ![0, 0] S1x128
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  gather_S5x128_S600000x1_S600000x128_1_0_n_n_0_1_1128_wf : GatherDims.WF S5x128 S600000x1 S600000x128 [1] [0] [] [0] [] 1 ![1, 128]
  gather_S3x128_S600000x1_S600000x128_1_0_n_n_0_1_1128_wf : GatherDims.WF S3x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S5x128_S600000x1_S600000x128_1_0_n_n_0_1_1128 : GatherDims S5x128 S600000x1 S600000x128 where
  offsetDims := [1]
  collapsedSliceDims := [0]
  operandBatchingDims := []
  startIndicesBatchingDims := []
  startIndexMap := [0]
  indexVectorDim := 1
  sliceSizes := ![1, 128]
  wf := gather_S5x128_S600000x1_S600000x128_1_0_n_n_0_1_1128_wf
def gather_S3x128_S600000x1_S600000x128_1_0_n_n_0_1_1128 : GatherDims S3x128 S600000x1 S600000x128 where
  offsetDims := [1]
  collapsedSliceDims := [0]
  operandBatchingDims := []
  startIndicesBatchingDims := []
  startIndexMap := [0]
  indexVectorDim := 1
  sliceSizes := ![1, 128]
  wf := gather_S3x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.NodeUpdate.lean ====
/-
  The node update both programs compute, as ONE function of the argument arrays over the extended reals.

  A node `r` of the graph holds a feature row `x r` of 128 numbers. Message passing has already produced `s r`, the sum over
  the edges into `r` of the source node's row plus the edge's two bond embeddings; this file never looks inside `s`, it is a
  parameter. The update adds the node's own row and the self-loop's bond embedding `e1 4 + e2 0` (bond type 4, direction 0),
  and sends the result through a two-layer perceptron with weights stored output-major (`w1 : 256 × 128`, `w2 : 128 × 256`):

      combined r d = s r d + x r d + (e1 4 d + e2 0 d)
      hidden r k   = max (Σ_d combined r d · w1 k d + b1 k) 0
      out r j      = Σ_k hidden r k · w2 j k + b2 j

  The only law used between the two programs' spellings is associativity of addition: one of them adds the two embedding rows
  to each other first, the other adds them to the node's sum one after the other. Addition of extended reals is associative
  (they form a commutative monoid under `+`), so no finiteness of the inputs is needed anywhere.
-/
import Idealize.ShloMosaic.PureOps.Ideal
import Idealize.ShloMosaic.Lib.ValueIdx

noncomputable section

namespace Cert.NodeUpdate

open Idealize.ShloMosaic Idealize.ShloMosaic.ValueIdx

/-- The node's aggregated messages plus its own row plus the self-loop embedding (bond type 4 plus bond direction 0). -/
def combined (s x : (⟨2, ![50000, 128]⟩ : Shape).Idx → EReal) (e1 : (⟨2, ![5, 128]⟩ : Shape).Idx → EReal)
    (e2 : (⟨2, ![3, 128]⟩ : Shape).Idx → EReal) (r : Fin 50000) (d : Fin 128) : EReal :=
  s (ix2 r d) + x (ix2 r d) + (e1 (ix2 (4 : Fin 5) d) + e2 (ix2 (0 : Fin 3) d))

/-- The first layer: the combined row against row `k` of `w1`, plus the bias, clamped below at zero. -/
def hidden (s x : (⟨2, ![50000, 128]⟩ : Shape).Idx → EReal) (e1 : (⟨2, ![5, 128]⟩ : Shape).Idx → EReal)
    (e2 : (⟨2, ![3, 128]⟩ : Shape).Idx → EReal) (w1 : (⟨2, ![256, 128]⟩ : Shape).Idx → EReal)
    (b1 : (⟨1, ![256]⟩ : Shape).Idx → EReal) (r : Fin 50000) (k : Fin 256) : EReal :=
  max ((∑ d : Fin 128, combined s x e1 e2 r d * w1 (ix2 k d)) + b1 (ix1 k)) 0

/-- The second layer: the hidden row against row `j` of `w2`, plus the bias — the whole result array, index by index. -/
def out (s x : (⟨2, ![50000, 128]⟩ : Shape).Idx → EReal) (e1 : (⟨2, ![5, 128]⟩ : Shape).Idx → EReal)
    (e2 : (⟨2, ![3, 128]⟩ : Shape).Idx → EReal) (w1 : (⟨2, ![256, 128]⟩ : Shape).Idx → EReal)
    (b1 : (⟨1, ![256]⟩ : Shape).Idx → EReal) (w2 : (⟨2, ![128, 256]⟩ : Shape).Idx → EReal)
    (b2 : (⟨1, ![128]⟩ : Shape).Idx → EReal) : (⟨2, ![50000, 128]⟩ : Shape).Idx → EReal :=
  fun i => (∑ k : Fin 256, hidden s x e1 e2 w1 b1 (i 0) k * w2 (ix2 (i 1) k)) + b2 (ix1 (i 1))

/-- The same combined entry with the two embedding rows added one after the other: associativity of `+`. -/
theorem combined_eq_seq (s x : (⟨2, ![50000, 128]⟩ : Shape).Idx → EReal) (e1 : (⟨2, ![5, 128]⟩ : Shape).Idx → EReal)
    (e2 : (⟨2, ![3, 128]⟩ : Shape).Idx → EReal) (r : Fin 50000) (d : Fin 128) :
    s (ix2 r d) + x (ix2 r d) + e1 (ix2 (4 : Fin 5) d) + e2 (ix2 (0 : Fin 3) d) = combined s x e1 e2 r d := by
  unfold combined
  exact add_assoc _ _ _

/-- An entry computed from PREPARED arrays — the self-loop row `u` already summed, the weights already transposed, the biases
    as one-row matrices — is the specification's entry, once each prepared entry is known to be the argument entry it came
    from. The sums run over the same index sets term by term; the one change of grouping is in `combined` itself. -/
theorem out_of_prepared (s x : (⟨2, ![50000, 128]⟩ : Shape).Idx → EReal) (e1 : (⟨2, ![5, 128]⟩ : Shape).Idx → EReal)
    (e2 : (⟨2, ![3, 128]⟩ : Shape).Idx → EReal) (w1 : (⟨2, ![256, 128]⟩ : Shape).Idx → EReal)
    (b1 : (⟨1, ![256]⟩ : Shape).Idx → EReal) (w2 : (⟨2, ![128, 256]⟩ : Shape).Idx → EReal)
    (b2 : (⟨1, ![128]⟩ : Shape).Idx → EReal)
    (u : (⟨2, ![1, 128]⟩ : Shape).Idx → EReal) (w1t : (⟨2, ![128, 256]⟩ : Shape).Idx → EReal)
    (b1r : (⟨2, ![1, 256]⟩ : Shape).Idx → EReal) (w2t : (⟨2, ![256, 128]⟩ : Shape).Idx → EReal)
    (b2r : (⟨2, ![1, 128]⟩ : Shape).Idx → EReal)
    (hu : ∀ d : Fin 128, u (ix2 (0 : Fin 1) d) = e1 (ix2 (4 : Fin 5) d) + e2 (ix2 (0 : Fin 3) d))
    (h1 : ∀ (d : Fin 128) (k : Fin 256), w1t (ix2 d k) = w1 (ix2 k d))
    (hb1 : ∀ k : Fin 256, b1r (ix2 (0 : Fin 1) k) = b1 (ix1 k))
    (h2 : ∀ (k : Fin 256) (q : Fin 128), w2t (ix2 k q) = w2 (ix2 q k))
    (hb2 : ∀ q : Fin 128, b2r (ix2 (0 : Fin 1) q) = b2 (ix1 q))
    (r : Fin 50000) (q : Fin 128) :
    (∑ k : Fin 256, max ((∑ d : Fin 128, (s (ix2 r d) + x (ix2 r d) + u (ix2 (0 : Fin 1) d)) * w1t (ix2 d k))
        + b1r (ix2 (0 : Fin 1) k)) 0 * w2t (ix2 k q)) + b2r (ix2 (0 : Fin 1) q)
      = out s x e1 e2 w1 b1 w2 b2 (ix2 r q) := by
  unfold out hidden combined
  simp only [hu, h1, hb1, h2, hb2]

end Cert.NodeUpdate

end
-- ==== Proof.KernelTile.lean ====
/-
  What the kernel's body stores for one tile of 5000 nodes, read at an entry `(p, q)` of the tile.

  The body loads the tile's rows of aggregated messages `x0` and of node features `x1`, the self-loop row `x2 : 1 × 128`, the
  first layer's weights already transposed `x3 : 128 × 256` with its bias row `x4 : 1 × 256`, and the second layer's
  `x5 : 256 × 128`, `x6 : 1 × 128`. Over the extended reals the casts to bf16 are the identity and each matrix product
  into a zero accumulator is the plain sum over the contracted axis, so the stored entry is

      Σ_k max (Σ_d (x0 p d + x1 p d + x2 0 d) · x3 d k + x4 0 k) 0 · x5 k q + x6 0 q.
-/
import proofs.«182113_j1494648619556_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The first product's record, by a short name. -/
abbrev D1 := dot_S5000x128_S128x256_S5000x256_1_0_0_1_n_n
/-- The second product's record, by a short name. -/
abbrev D2 := dot_S5000x256_S256x128_S5000x128_1_0_0_1_n_n

theorem D1_lhs0 (i : S5000x256.Idx) (c : D1.contr.Idx) : (D1.lhsIdx i c 0).val = (i 0).val := by
  unfold DotDims.lhsIdx
  rw [dif_neg (show ¬(0 : Fin S5000x128.rank) ∈ D1.lhsBatch by decide), dif_pos (show (0 : Fin S5000x128.rank) ∈ D1.lhsNonContracting by decide)]
  rfl
theorem D1_rhs1 (i : S5000x256.Idx) (c : D1.contr.Idx) : (D1.rhsIdx i c 1).val = (i 1).val := by
  unfold DotDims.rhsIdx
  rw [dif_neg (show ¬(1 : Fin S128x256.rank) ∈ D1.rhsBatch by decide), dif_pos (show (1 : Fin S128x256.rank) ∈ D1.rhsNonContracting by decide)]
  rfl
theorem D2_lhs0 (i : S5000x128.Idx) (c : D2.contr.Idx) : (D2.lhsIdx i c 0).val = (i 0).val := by
  unfold DotDims.lhsIdx
  rw [dif_neg (show ¬(0 : Fin S5000x256.rank) ∈ D2.lhsBatch by decide), dif_pos (show (0 : Fin S5000x256.rank) ∈ D2.lhsNonContracting by decide)]
  rfl
theorem D2_rhs1 (i : S5000x128.Idx) (c : D2.contr.Idx) : (D2.rhsIdx i c 1).val = (i 1).val := by
  unfold DotDims.rhsIdx
  rw [dif_neg (show ¬(1 : Fin S256x128.rank) ∈ D2.rhsBatch by decide), dif_pos (show (1 : Fin S256x128.rank) ∈ D2.rhsNonContracting by decide)]
  rfl

/-- The first matrix product into a zero accumulator, at `(p, k)`: the sum over the 128 feature columns. -/
theorem dot1_apply (l : FVec Ideal S5000x128 .bf16) (r : FVec Ideal S128x256 .bf16) (p : Fin 5000) (k : Fin 256) :
    matmul D1 none l r (constant (F := Ideal) S5000x256 .f32 0x00000000#32) (ix2 p k) = ∑ d : Fin 128, l (ix2 p d) * r (ix2 d k) := by
  simp only [matmul]
  rw [Ideal.matmul_constant_zero_apply, ← Equiv.sum_comp (contrEquiv1 D1 128 rfl rfl).symm]
  refine Finset.sum_congr rfl fun d _ => ?_
  have hd := contrEquiv1_symm_val D1 128 rfl rfl d
  have el : D1.lhsIdx (ix2 p k) ((contrEquiv1 D1 128 rfl rfl).symm d) = ix2 p d := funext fun a => Fin.ext (by
    match a with
    | ⟨0, _⟩ => exact D1_lhs0 _ _
    | ⟨1, _⟩ => exact (D1.lhsIdx_val_of_single rfl _ _).trans hd)
  have er : D1.rhsIdx (ix2 p k) ((contrEquiv1 D1 128 rfl rfl).symm d) = ix2 d k := funext fun a => Fin.ext (by
    match a with
    | ⟨0, _⟩ => exact (D1.rhsIdx_val_of_single rfl _ _).trans hd
    | ⟨1, _⟩ => exact D1_rhs1 _ _)
  rw [el, er]

/-- The second matrix product into a zero accumulator, at `(p, q)`: the sum over the 256 hidden columns. -/
theorem dot2_apply (l : FVec Ideal S5000x256 .bf16) (r : FVec Ideal S256x128 .bf16) (p : Fin 5000) (q : Fin 128) :
    matmul D2 none l r (constant (F := Ideal) S5000x128 .f32 0x00000000#32) (ix2 p q) = ∑ k : Fin 256, l (ix2 p k) * r (ix2 k q) := by
  simp only [matmul]
  rw [Ideal.matmul_constant_zero_apply, ← Equiv.sum_comp (contrEquiv1 D2 256 rfl rfl).symm]
  refine Finset.sum_congr rfl fun k _ => ?_
  have hk := contrEquiv1_symm_val D2 256 rfl rfl k
  have el : D2.lhsIdx (ix2 p q) ((contrEquiv1 D2 256 rfl rfl).symm k) = ix2 p k := funext fun a => Fin.ext (by
    match a with
    | ⟨0, _⟩ => exact D2_lhs0 _ _
    | ⟨1, _⟩ => exact (D2.lhsIdx_val_of_single rfl _ _).trans hk)
  have er : D2.rhsIdx (ix2 p q) ((contrEquiv1 D2 256 rfl rfl).symm k) = ix2 k q := funext fun a => Fin.ext (by
    match a with
    | ⟨0, _⟩ => exact (D2.rhsIdx_val_of_single rfl _ _).trans hk
    | ⟨1, _⟩ => exact D2_rhs1 _ _)
  rw [el, er]

/-- The stored tile at `(p, q)`. -/
theorem pay_apply (x0 x1 : Vec Ideal S5000x128 .f32) (x2 : Vec Ideal S1x128 .f32) (x3 : Vec Ideal S128x256 .f32)
    (x4 : Vec Ideal S1x256 .f32) (x5 : Vec Ideal S256x128 .f32) (x6 : Vec Ideal S1x128 .f32) (p : Fin 5000) (q : Fin 128) :
    k0_pay1 (F := Ideal) x0 x1 x2 x3 x4 x5 x6 (ix2 p q)
      = (∑ k : Fin 256, max ((∑ d : Fin 128, (x0 (ix2 p d) + x1 (ix2 p d) + x2 (ix2 (0 : Fin 1) d)) * x3 (ix2 d k))
            + x4 (ix2 (0 : Fin 1) k)) 0 * x5 (ix2 k q)) + x6 (ix2 (0 : Fin 1) q) := by
  unfold k0_pay1
  simp only [shapeCast_self, addf_apply, maximumf_apply, truncf_apply, dot1_apply, dot2_apply, broadcastTo_1b_ab_apply,
    broadcast_apply, Ideal.ofBits_def, Ideal.ofBits_zero_f32]

end Cert.KernelIdeal.Tile

end
-- ==== Proof.KernelHost.lean ====
/-
  What the kernel's region finds in the arrays the host prepared for it, read at an index.

  Before the launch the host program builds, besides the aggregated messages, five small arrays from the arguments: the
  self-loop row `e1[4] + e2[0]` as a `1 × 128` matrix, the two weight matrices transposed, and the two bias vectors as
  one-row matrices. Each is a slice, a transpose or a change of shape, so each entry is ONE entry (or, for the self-loop
  row, the sum of two entries) of an argument array. The aggregated messages themselves are named and left closed.
-/
import proofs.«182113_j1494648619556_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The argument arrays, each at its literal type -/

/-- The node features, `50000 × 128`. -/
abbrev feat (c : Dev nD) : S50000x128.Idx → EReal := m ((c : Thread nD τ).loc main_arg0)
/-- The first layer's weights, `256 × 128`. -/
abbrev W1 (c : Dev nD) : S256x128.Idx → EReal := m ((c : Thread nD τ).loc main_arg3)
/-- The first layer's bias. -/
abbrev b1 (c : Dev nD) : S256.Idx → EReal := m ((c : Thread nD τ).loc main_arg4)
/-- The second layer's weights, `128 × 256`. -/
abbrev W2 (c : Dev nD) : S128x256.Idx → EReal := m ((c : Thread nD τ).loc main_arg5)
/-- The second layer's bias. -/
abbrev b2 (c : Dev nD) : S128.Idx → EReal := m ((c : Thread nD τ).loc main_arg6)
/-- The bond-type embedding table, `5 × 128`. -/
abbrev e1 (c : Dev nD) : S5x128.Idx → EReal := m ((c : Thread nD τ).loc main_arg7)
/-- The bond-direction embedding table, `3 × 128`. -/
abbrev e2 (c : Dev nD) : S3x128.Idx → EReal := m ((c : Thread nD τ).loc main_arg8)

/-! ## The arrays the host prepared, as the region finds them -/

/-- The aggregated messages: the scatter-add of the gathered rows. Kept closed: nothing below unfolds it. -/
def msgs (c : Dev nD) : S50000x128.Idx → EReal := V m c main_v33
/-- The self-loop row, `1 × 128`. -/
abbrev selfLoopRow (c : Dev nD) : S1x128.Idx → EReal := V m c main_v39
/-- The first layer's weights transposed, `128 × 256`. -/
abbrev w1t (c : Dev nD) : S128x256.Idx → EReal := V m c main_v40
/-- The second layer's weights transposed, `256 × 128`. -/
abbrev w2t (c : Dev nD) : S256x128.Idx → EReal := V m c main_v41
/-- The first bias as a row, `1 × 256`. -/
abbrev b1row (c : Dev nD) : S1x256.Idx → EReal := V m c main_v42
/-- The second bias as a row, `1 × 128`. -/
abbrev b2row (c : Dev nD) : S1x128.Idx → EReal := V m c main_v43

/-- The self-loop row as the host builds it: row 4 of `e1` plus row 0 of `e2`, as a one-row matrix. -/
theorem selfLoopRow_eq (c : Dev nD) : selfLoopRow m c
    = shapeCast _ (addf (F := Ideal) (φ := .f32) (shapeCast _ (extractStridedSlice S1x128 ![4, 0] (e1 m c) slices_S5x128_S1x128_4_0) shapeCasts_S1x128_S128)
        (shapeCast _ (extractStridedSlice S1x128 ![0, 0] (e2 m c) slices_S3x128_S1x128_0_0) shapeCasts_S1x128_S128))
        shapeCasts_S128_S1x128 := by
  dsimp only [selfLoopRow, V, hostOps0]; after_results_simp <;> rfl

theorem w1t_eq (c : Dev nD) : w1t m c = transpose S128x256 [1, 0] (W1 m c) transposes_S256x128_S128x256_1_0 := by
  dsimp only [w1t, V, hostOps0]; after_results_simp <;> rfl

theorem w2t_eq (c : Dev nD) : w2t m c = transpose S256x128 [1, 0] (W2 m c) transposes_S128x256_S256x128_1_0 := by
  dsimp only [w2t, V, hostOps0]; after_results_simp <;> rfl

theorem b1row_eq (c : Dev nD) : b1row m c = shapeCast _ (b1 m c) shapeCasts_S256_S1x256 := by
  dsimp only [b1row, V, hostOps0]; after_results_simp <;> rfl

theorem b2row_eq (c : Dev nD) : b2row m c = shapeCast _ (b2 m c) shapeCasts_S128_S1x128 := by
  dsimp only [b2row, V, hostOps0]; after_results_simp <;> rfl

/-- The self-loop row at column `d`: `e1 4 d + e2 0 d`. -/
theorem selfLoopRow_apply (c : Dev nD) (d : Fin 128) :
    selfLoopRow m c (ix2 (0 : Fin 1) d) = e1 m c (ix2 (4 : Fin 5) d) + e2 m c (ix2 (0 : Fin 3) d) := by
  rw [selfLoopRow_eq, shapeCast_a_1a_apply, addf_apply, shapeCast_1a_a_apply, shapeCast_1a_a_apply,
    slice2_axis0_apply 4 _ _ (0 : Fin 1) d (4 : Fin 5) rfl, slice2_axis0_apply 0 _ _ (0 : Fin 1) d (0 : Fin 3) rfl]

/-- The first layer's transposed weights at `(d, k)`: `W1` at `(k, d)`. -/
theorem w1t_apply (c : Dev nD) (d : Fin 128) (k : Fin 256) : w1t m c (ix2 d k) = W1 m c (ix2 k d) := by
  rw [w1t_eq, transpose_ix2_apply]

/-- The second layer's transposed weights at `(k, q)`: `W2` at `(q, k)`. -/
theorem w2t_apply (c : Dev nD) (k : Fin 256) (q : Fin 128) : w2t m c (ix2 k q) = W2 m c (ix2 q k) := by
  rw [w2t_eq, transpose_ix2_apply]

/-- The first bias row at column `k`. -/
theorem b1row_apply (c : Dev nD) (k : Fin 256) : b1row m c (ix2 (0 : Fin 1) k) = b1 m c (ix1 k) := by
  rw [b1row_eq, shapeCast_a_1a_apply]

/-- The second bias row at column `q`. -/
theorem b2row_apply (c : Dev nD) (q : Fin 128) : b2row m c (ix2 (0 : Fin 1) q) = b2 m c (ix1 q) := by
  rw [b2row_eq, shapeCast_a_1a_apply]

end Cert.KernelIdeal.Host

end
-- ==== Proof.KernelArray.lean ====
/-
  From the tiles to the array: after the kernel's run the result array holds the node update of the arguments.

  The grid has ten points; point `t` works on the 5000 rows `5000·t … 5000·t + 4999` of the aggregated messages, of the node
  features and of the result, and on the whole of each of the five small prepared arrays. What point `t` writes back is the
  body's stored tile; read at `(p, q)` it is the specification's entry at row `5000·t + p`, column `q`. The ten row blocks are
  disjoint and cover the 50000 rows (row `r` lies in the block of point `r / 5000`), so the array after the run is the
  specification, index by index.
-/
import proofs.«182113_j1494648619556_1_alg».proof.Proof.Gen.KernelIdeal.Value
import proofs.«182113_j1494648619556_1_alg».proof.Proof.NodeUpdate
import proofs.«182113_j1494648619556_1_alg».proof.Proof.KernelTile
import proofs.«182113_j1494648619556_1_alg».proof.Proof.KernelHost

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the ten grid points: the three row windows (messages, features, result) are at block
    `(t, 0)`, the five prepared arrays at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of point `t`'s tile is a row of the array. -/
theorem row_lt (t : Fin cfg0.N) (p : Fin 5000) : t.val * 5000 + p.val < 50000 := by
  have h := t.isLt
  have hN : cfg0.N = 10 := N_0
  have := p.isLt; omega

/-- The array row that row `p` of point `t`'s tile is. -/
abbrev row (t : Fin cfg0.N) (p : Fin 5000) : Fin 50000 := ⟨t.val * 5000 + p.val, row_lt t p⟩

/-! ## Each input window's block at a point, read at an entry

Stated first for an ARBITRARY array in the window's place (the block only re-indexes it), then at the array the region finds. -/

theorem read0 (c : Dev nD) (t : Fin cfg0.N) (A : Buf (Elt Ideal) ((c : Thread nD τ).loc (Pipeline.arrRef spec0 0)))
    (p : Fin 5000) (d : Fin 128) :
    (((cfg0.win 0).blk t).view.read (Elt Ideal) A : Vec Ideal S5000x128 .f32) (ix2 p d) = (A : S50000x128.Idx → EReal) (ix2 (row t p) d) := by
  obtain ⟨e0, e1, -⟩ := idx_facts t
  rw [View.read_apply]
  show A _ = A _
  refine congrArg A (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * d.val = d.val; rw [e1]; omega

theorem read1 (c : Dev nD) (t : Fin cfg0.N) (A : Buf (Elt Ideal) ((c : Thread nD τ).loc (Pipeline.arrRef spec0 1)))
    (p : Fin 5000) (d : Fin 128) :
    (((cfg0.win 1).blk t).view.read (Elt Ideal) A : Vec Ideal S5000x128 .f32) (ix2 p d) = (A : S50000x128.Idx → EReal) (ix2 (row t p) d) := by
  obtain ⟨-, -, e0, e1, -⟩ := idx_facts t
  rw [View.read_apply]
  show A _ = A _
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * d.val = d.val; rw [e1]; omega

theorem read2 (c : Dev nD) (t : Fin cfg0.N) (A : Buf (Elt Ideal) ((c : Thread nD τ).loc (Pipeline.arrRef spec0 2)))
    (u : Fin 1) (d : Fin 128) :
    (((cfg0.win 2).blk t).view.read (Elt Ideal) A : Vec Ideal S1x128 .f32) (ix2 u d) = (A : S1x128.Idx → EReal) (ix2 u d) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 1 + 1 * u.val = u.val; rw [e0]; omega
  | ⟨1, _⟩ => show win0_2.index t (1 : Fin 2) * 128 + 1 * d.val = d.val; rw [e1]; omega

theorem read3 (c : Dev nD) (t : Fin cfg0.N) (A : Buf (Elt Ideal) ((c : Thread nD τ).loc (Pipeline.arrRef spec0 3)))
    (d : Fin 128) (k : Fin 256) :
    (((cfg0.win 3).blk t).view.read (Elt Ideal) A : Vec Ideal S128x256 .f32) (ix2 d k) = (A : S128x256.Idx → EReal) (ix2 d k) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 128 + 1 * d.val = d.val; rw [e0]; omega
  | ⟨1, _⟩ => show win0_3.index t (1 : Fin 2) * 256 + 1 * k.val = k.val; rw [e1]; omega

theorem read4 (c : Dev nD) (t : Fin cfg0.N) (A : Buf (Elt Ideal) ((c : Thread nD τ).loc (Pipeline.arrRef spec0 4)))
    (u : Fin 1) (k : Fin 256) :
    (((cfg0.win 4).blk t).view.read (Elt Ideal) A : Vec Ideal S1x256 .f32) (ix2 u k) = (A : S1x256.Idx → EReal) (ix2 u k) := by
  obtain ⟨-, -, -, -, -, -, -, -, e0, e1, -⟩ := idx_facts t
  rw [View.read_apply]
  show A _ = A _
  refine congrArg A (funext fun a => Fin.ext ?_)
  match a with
  | ⟨0, _⟩ => show win0_4.index t (0 : Fin 2) * 1 + 1 * u.val = u.val; rw [e0]; omega
  | ⟨1, _⟩ => show win0_4.index t (1 : Fin 2) * 256 + 1 * k.val = k.val; rw [e1]; omega

theorem read5 (c : Dev nD) (t : Fin cfg0.N) (A : Buf (Elt Ideal) ((c : Thread nD τ).loc (Pipeline.arrRef spec0 5)))
    (k : Fin 256) (q : Fin 128) :
    (((cfg0.win 5).blk t).view.read (Elt Ideal) A : Vec Ideal S256x128 .f32) (ix2 k q) = (A : S256x128.Idx → EReal) (ix2 k q) := by
  obtain ⟨-, -, -, -, -, -, -, -, -, -, e0, e1, -⟩ := idx_facts t
  rw [View.read_apply]
  show A _ = A _
  refine congrArg A (funext fun a => Fin.ext ?_)
  match a with
  | ⟨0, _⟩ => show win0_5.index t (0 : Fin 2) * 256 + 1 * k.val = k.val; rw [e0]; omega
  | ⟨1, _⟩ => show win0_5.index t (1 : Fin 2) * 128 + 1 * q.val = q.val; rw [e1]; omega

theorem read6 (c : Dev nD) (t : Fin cfg0.N) (A : Buf (Elt Ideal) ((c : Thread nD τ).loc (Pipeline.arrRef spec0 6)))
    (u : Fin 1) (q : Fin 128) :
    (((cfg0.win 6).blk t).view.read (Elt Ideal) A : Vec Ideal S1x128 .f32) (ix2 u q) = (A : S1x128.Idx → EReal) (ix2 u q) := by
  obtain ⟨-, -, -, -, -, -, -, -, -, -, -, -, e0, e1, -⟩ := idx_facts t
  rw [View.read_apply]
  show A _ = A _
  refine congrArg A (funext fun a => Fin.ext ?_)
  match a with
  | ⟨0, _⟩ => show win0_6.index t (0 : Fin 2) * 1 + 1 * u.val = u.val; rw [e0]; omega
  | ⟨1, _⟩ => show win0_6.index t (1 : Fin 2) * 128 + 1 * q.val = q.val; rw [e1]; omega

theorem iblk0_apply (c : Dev nD) (t : Fin cfg0.N) (p : Fin 5000) (d : Fin 128) :
    (iblk m c 0 t : Vec Ideal S5000x128 .f32) (ix2 p d) = Host.msgs m c (ix2 (row t p) d) :=
  read0 c t (V m c (Pipeline.arrRef spec0 0)) p d

theorem iblk1_apply (c : Dev nD) (t : Fin cfg0.N) (p : Fin 5000) (d : Fin 128) :
    (iblk m c 1 t : Vec Ideal S5000x128 .f32) (ix2 p d) = Host.feat m c (ix2 (row t p) d) :=
  (read1 c t (V m c (Pipeline.arrRef spec0 1)) p d).trans (congrFun (V_main_arg0 m c) (ix2 (row t p) d))

theorem iblk2_apply (c : Dev nD) (t : Fin cfg0.N) (u : Fin 1) (d : Fin 128) :
    (iblk m c 2 t : Vec Ideal S1x128 .f32) (ix2 u d) = Host.selfLoopRow m c (ix2 u d) :=
  read2 c t (V m c (Pipeline.arrRef spec0 2)) u d

theorem iblk3_apply (c : Dev nD) (t : Fin cfg0.N) (d : Fin 128) (k : Fin 256) :
    (iblk m c 3 t : Vec Ideal S128x256 .f32) (ix2 d k) = Host.w1t m c (ix2 d k) :=
  read3 c t (V m c (Pipeline.arrRef spec0 3)) d k

theorem iblk4_apply (c : Dev nD) (t : Fin cfg0.N) (u : Fin 1) (k : Fin 256) :
    (iblk m c 4 t : Vec Ideal S1x256 .f32) (ix2 u k) = Host.b1row m c (ix2 u k) :=
  read4 c t (V m c (Pipeline.arrRef spec0 4)) u k

theorem iblk5_apply (c : Dev nD) (t : Fin cfg0.N) (k : Fin 256) (q : Fin 128) :
    (iblk m c 5 t : Vec Ideal S256x128 .f32) (ix2 k q) = Host.w2t m c (ix2 k q) :=
  read5 c t (V m c (Pipeline.arrRef spec0 5)) k q

theorem iblk6_apply (c : Dev nD) (t : Fin cfg0.N) (u : Fin 1) (q : Fin 128) :
    (iblk m c 6 t : Vec Ideal S1x128 .f32) (ix2 u q) = Host.b2row m c (ix2 u q) :=
  read6 c t (V m c (Pipeline.arrRef spec0 6)) u q

/-! ## The result array -/

/-- What the result array ends holding: the node update of the aggregated messages and the arguments. -/
def result (c : Dev nD) : S50000x128.Idx → EReal :=
  NodeUpdate.out (Host.msgs m c) (Host.feat m c) (Host.e1 m c) (Host.e2 m c) (Host.W1 m c) (Host.b1 m c) (Host.W2 m c) (Host.b2 m c)

/-- Entry `(p, q)` of point `t`'s result block sits in the array at row `5000·t + p`, column `q`. -/
theorem emb7 (t : Fin cfg0.N) (p : Fin 5000) (q : Fin 128) :
    ((cfg0.win 7).blk t).view.emb (ix2 p q) = (ix2 (row t p) q : S50000x128.Idx) := by
  obtain ⟨-, -, -, -, -, -, -, -, -, -, -, -, -, -, e0, e1⟩ := idx_facts t
  funext a; apply Fin.ext
  match a with
  | ⟨0, _⟩ => show win0_7.index t (0 : Fin 2) * 5000 + 1 * p.val = t.val * 5000 + p.val; rw [e0]; omega
  | ⟨1, _⟩ => show win0_7.index t (1 : Fin 2) * 128 + 1 * q.val = q.val; rw [e1]; omega

/-- WHAT POINT `t` WRITES BACK is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S5000x128) hz, View.ld_unit_zero (S := S1x128) hz, View.ld_unit_zero (S := S128x256) hz,
    View.ld_unit_zero (S := S1x256) hz, View.ld_unit_zero (S := S256x128) hz]
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  rw [emb7]
  refine (Tile.pay_apply (iblk m c 0 t) (iblk m c 1 t) (iblk m c 2 t) (iblk m c 3 t) (iblk m c 4 t) (iblk m c 5 t) (iblk m c 6 t) p q).trans ?_
  simp only [iblk0_apply, iblk1_apply, iblk2_apply, iblk3_apply, iblk4_apply, iblk5_apply, iblk6_apply]
  exact NodeUpdate.out_of_prepared (Host.msgs m c) (Host.feat m c) (Host.e1 m c) (Host.e2 m c) (Host.W1 m c) (Host.b1 m c)
    (Host.W2 m c) (Host.b2 m c) (Host.selfLoopRow m c) (Host.w1t m c) (Host.b1row m c) (Host.w2t m c) (Host.b2row m c)
    (Host.selfLoopRow_apply m c) (Host.w1t_apply m c) (Host.b1row_apply m c) (Host.w2t_apply m c) (Host.b2row_apply m c) (row t p) q

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v44).slice (win0_7.rect t)).set ↔ _
  rw [View.set_slice_whole, Rect.mem_set_unit]
  exact Iff.rfl

/-- Every index of the array is in some point's block: row `r` in the block of point `r / 5000`. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, -, -, -, -, e0, e1⟩ := idx_facts t
  have ht : t.val = (i 0).val / 5000 := rfl
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 128 ≤ (i 1).val ∧ (i 1).val < win0_7.index t (1 : Fin 2) * 128 + 128; rw [e1]; omega

/-- THE ARRAY after the run is `result`. -/
theorem final (c : Dev nD) : (dats m 0 c).arrAt 7 cfg0.N = result m c :=
  (dats m 0 c).arrAt_eq_of_cover 7 (result m c) (fun t _ => flushed_eq m c t) cover

/-- The kernel's run, read: the result array at the node update of the arguments, the arguments unchanged. -/
theorem run : θ_run defs (onTc (τ := τ) (main (F := Ideal))) ⟨m, fun _ => 0, ρ⟩ fun r => ∀ c : Dev nD,
      r.2.mem ((c : Thread nD τ).loc main_v44) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Array

end
-- ==== Proof.RefValue.lean ====
/-
  The reference program's result, read one operation at a time, is the node update `NodeUpdate.out` of its arguments.

  The reference adds the self-loop embedding rows one after the other, `((s + x) + e1 4) + e2 0`, where the specification
  adds them to each other first: associativity of `+` (`NodeUpdate.combined_eq_seq`). Its two `dot_general`s contract the
  feature axis against the transposed weights, so the entry of `W1ᵀ` at `(d, k)` is `W1` at `(k, d)`; the biases are
  broadcast along the node axis. The aggregated messages `s` — the scatter-add of the gathered rows — stay the one opaque
  term `val_main_v33` of the arguments; nothing here opens it.
-/
import proofs.«182113_j1494648619556_1_alg».proof.Proof.Gen.ReferenceIdeal.Read
import proofs.«182113_j1494648619556_1_alg».proof.Proof.NodeUpdate

noncomputable section

namespace Cert.ReferenceIdeal.RefValue

open Cert.ReferenceIdeal Cert.ReferenceIdeal.Read Idealize.ShloMosaic Idealize.ShloMosaic.ValueIdx

variable (x0 : (⟨S50000x128, .f32⟩ : BufTy).Contents (Elt Ideal)) (x1 : (⟨S2x600000, .i32⟩ : BufTy).Contents (Elt Ideal))
  (x2 : (⟨S600000x2, .i32⟩ : BufTy).Contents (Elt Ideal)) (x3 : (⟨S256x128, .f32⟩ : BufTy).Contents (Elt Ideal))
  (x4 : (⟨S256, .f32⟩ : BufTy).Contents (Elt Ideal)) (x5 : (⟨S128x256, .f32⟩ : BufTy).Contents (Elt Ideal))
  (x6 : (⟨S128, .f32⟩ : BufTy).Contents (Elt Ideal)) (x7 : (⟨S5x128, .f32⟩ : BufTy).Contents (Elt Ideal))
  (x8 : (⟨S3x128, .f32⟩ : BufTy).Contents (Elt Ideal))

/-- The input of the first layer at `(r, d)`: messages, own row, and the two self-loop embedding rows added in turn. -/
theorem combined_apply (r : Fin 50000) (d : Fin 128) :
    val_main_v44 (F := Ideal) x0 x1 x2 x7 x8 (ix2 r d)
      = NodeUpdate.combined (val_main_v33 (F := Ideal) x0 x1 x2 x7 x8) x0 x7 x8 r d := by
  have i7 : idx_main_v35 (idx_main_v36 (idx_main_v37 (idx_main_v38 (ix2 r d)))) = ix2 (4 : Fin 5) d :=
    funext fun a => Fin.ext (by
      match a with
      | ⟨0, _⟩ => rfl
      | ⟨1, _⟩ => exact Nat.mod_eq_of_lt d.isLt)
  have i8 : idx_main_v40 (idx_main_v41 (idx_main_v42 (idx_main_v43 (ix2 r d)))) = ix2 (0 : Fin 3) d :=
    funext fun a => Fin.ext (by
      match a with
      | ⟨0, _⟩ => rfl
      | ⟨1, _⟩ => exact Nat.mod_eq_of_lt d.isLt)
  rw [val_main_v44_apply, val_main_v39_apply, val_main_v34_apply, val_main_v38_apply, val_main_v37_apply, val_main_v36_apply,
    val_main_v35_apply, val_main_v43_apply, val_main_v42_apply, val_main_v41_apply, val_main_v40_apply, i7, i8]
  exact NodeUpdate.combined_eq_seq _ x0 x7 x8 r d

/-- The first layer's output at `(r, k)`. -/
theorem hidden_apply (r : Fin 50000) (k : Fin 256) :
    val_main_v50 (F := Ideal) x0 x1 x2 x3 x4 x7 x8 (ix2 r k)
      = NodeUpdate.hidden (val_main_v33 (F := Ideal) x0 x1 x2 x7 x8) x0 x7 x8 x3 x4 r k := by
  have hl : ∀ d : Fin 128, lidx_main_v46 (ix2 r k) d = ix2 r d := fun d =>
    funext fun a => by match a with | ⟨0, _⟩ => rfl | ⟨1, _⟩ => rfl
  have hr : ∀ d : Fin 128, idx_main_v45 (ridx_main_v46 (ix2 r k) d) = ix2 k d := fun d =>
    funext fun a => by match a with | ⟨0, _⟩ => rfl | ⟨1, _⟩ => rfl
  have h4 : idx_main_v47 (idx_main_v48 (ix2 r k)) = ix1 k :=
    funext fun a => by match a with | ⟨0, _⟩ => rfl
  rw [val_main_v50_apply, val_main_v49_apply, val_main_v46_apply, val_main_v48_apply, val_main_v47_apply,
    val_main_call0_v0_apply, val_main_call0_cst_apply]
  unfold NodeUpdate.hidden
  simp only [hl, val_main_v45_apply, hr, h4, combined_apply, Ideal.ofBits_def, Ideal.ofBits_zero_f32, Ideal.maximumf_def,
    Ideal.addf_def]

/-- The whole result array. -/
theorem result_eq :
    val_main_v55 (F := Ideal) x0 x1 x2 x3 x4 x5 x6 x7 x8
      = NodeUpdate.out (val_main_v33 (F := Ideal) x0 x1 x2 x7 x8) x0 x7 x8 x3 x4 x5 x6 := by
  funext i
  obtain ⟨r, j, rfl⟩ : ∃ (r : Fin 50000) (j : Fin 128), i = ix2 r j := ⟨i 0, i 1, eq_ix2 i⟩
  have hl : ∀ k : Fin 256, lidx_main_v52 (ix2 r j) k = ix2 r k := fun k =>
    funext fun a => by match a with | ⟨0, _⟩ => rfl | ⟨1, _⟩ => rfl
  have hr : ∀ k : Fin 256, idx_main_v51 (ridx_main_v52 (ix2 r j) k) = ix2 j k := fun k =>
    funext fun a => by match a with | ⟨0, _⟩ => rfl | ⟨1, _⟩ => rfl
  have h6 : idx_main_v53 (idx_main_v54 (ix2 r j)) = ix1 j :=
    funext fun a => by match a with | ⟨0, _⟩ => rfl
  rw [val_main_v55_apply, val_main_v52_apply, val_main_v54_apply, val_main_v53_apply]
  unfold NodeUpdate.out
  simp only [hl, val_main_v51_apply, hr, h6, hidden_apply, Ideal.addf_def]

end Cert.ReferenceIdeal.RefValue

end
-- ==== Proof.MsgsAgree.lean ====
/-
  The aggregated messages are the same term in both programs.

  Both host programs compute them by the same operations on the same arguments: take the destination and source rows of the
  edge list and the two attribute columns, wrap a negative index round once, gather the source node's row and the two bond
  embedding rows, add the three, and scatter-add the sums into a zero array by destination. The kernel's program hands the
  result to its region as an operand; the reference goes on computing with it. Neither side's gathers or scatter is opened:
  the two terms are read off the two operation lists and are the same applications, argument by argument.
-/
import proofs.«182113_j1494648619556_1_alg».proof.Proof.KernelHost
import proofs.«182113_j1494648619556_1_alg».proof.Proof.Gen.ReferenceIdeal.Read

noncomputable section

namespace Cert.Proof.Msgs

open Idealize.ShloMosaic Idealize.ShloMosaic.TcCoe Idealize.SL.Sem Idealize.ShloMosaic.StableHlo

/-- What the kernel's region finds as its first operand is the reference's scatter-add stage of the same arguments. -/
theorem msgs_eq (m : (ℓ : Loc Cert.KernelIdeal.nD Cert.KernelIdeal.τ Cert.KernelIdeal.sig) → Buf (Elt Ideal) ℓ)
    (c : Dev Cert.KernelIdeal.nD) :
    Cert.KernelIdeal.Host.msgs m c
      = Cert.ReferenceIdeal.Read.val_main_v33 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  unfold Cert.KernelIdeal.Host.msgs
  dsimp only [Cert.KernelIdeal.Gen.V, Cert.KernelIdeal.Gen.hostOps0]
  after_results_simp
  rfl

end Cert.Proof.Msgs

end
-- ==== Proof.lean ====
/-
  The kernel and its reference compute one function: a graph layer's node update.

  For each of 50000 nodes with a 128-wide feature row, message passing sums, over the edges into the node, the source node's
  row plus the edge's bond-type and bond-direction embedding rows; the node's own row and the self-loop embedding
  (bond type 4, direction 0) are added; and the sum goes through a two-layer perceptron, `relu(· W1ᵀ + b1) W2ᵀ + b2`.

  The kernel's program does the message passing on the host — by the very operations the reference uses, so the aggregated
  messages are the same term on both sides (`Proof/MsgsAgree.lean`) — and hands the rest to a kernel that walks the nodes in
  ten tiles of 5000 rows. Per tile it adds messages, features and the self-loop row (the two embedding rows added to each
  other beforehand on the host), and forms the two matrix products with the weights transposed beforehand; its casts to
  bf16 are the identity over the extended reals and each product into a zero accumulator is the plain sum over the
  contracted axis (`Proof/KernelTile.lean`, `Proof/KernelHost.lean`). The ten tiles cover the rows, so the result array is
  the specification `NodeUpdate.out` index by index (`Proof/KernelArray.lean`). The reference adds the two self-loop rows
  one after the other; associativity of `+` on the extended reals makes its result the same specification
  (`Proof/RefValue.lean`). No step needs the inputs to be finite.

  The three frames: the two kernel programs' are the generated frame theorems; the reference has no kernel, and its frame is
  its run with the result dropped. The idealization rewrote nothing, so `preserves` is `True`.
-/
import proofs.«182113_j1494648619556_1_alg».proof.Defs
import proofs.«182113_j1494648619556_1_alg».proof.Proof.Gen.Kernel
import proofs.«182113_j1494648619556_1_alg».proof.Proof.Gen.Kernel.Frame
import proofs.«182113_j1494648619556_1_alg».proof.Proof.Gen.KernelIdeal
import proofs.«182113_j1494648619556_1_alg».proof.Proof.Gen.KernelIdeal.Frame
import proofs.«182113_j1494648619556_1_alg».proof.Proof.Gen.KernelIdeal.Value
import proofs.«182113_j1494648619556_1_alg».proof.Proof.Gen.ReferenceIdeal
import proofs.«182113_j1494648619556_1_alg».proof.Proof.Gen.ReferenceIdeal.Run
import proofs.«182113_j1494648619556_1_alg».proof.Proof.Gen.ReferenceIdeal.Read
import proofs.«182113_j1494648619556_1_alg».proof.Proof.Gen.Pre_finite_inputs
import proofs.«182113_j1494648619556_1_alg».proof.Proof.NodeUpdate
import proofs.«182113_j1494648619556_1_alg».proof.Proof.KernelArray
import proofs.«182113_j1494648619556_1_alg».proof.Proof.RefValue
import proofs.«182113_j1494648619556_1_alg».proof.Proof.MsgsAgree
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `NodeUpdate.out` of the same aggregated messages and the same arguments. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v55_eq, Cert.ReferenceIdeal.RefValue.result_eq, h0, h1, h2, h3, h4, h5, h6, h7, h8]
  show _ = Cert.KernelIdeal.Array.result m c
  unfold Cert.KernelIdeal.Array.result
  rw [Cert.Proof.Msgs.msgs_eq]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
